-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x1 : Shape := ⟨2, ![4096, 1]⟩
abbrev S1x4096 : Shape := ⟨2, ![1, 4096]⟩
abbrev S1 : Shape := ⟨1, ![1]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S16384x4096 .f32) (main_arg1 : FVec F S4096x1 .f32) (main_arg2 : FVec F S1x4096 .f32) (main_arg3 : FVec F S1 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S16384x4096 : Shape := ⟨2, ![16384, 4096]⟩
abbrev S4096x1 : Shape := ⟨2, ![4096, 1]⟩
abbrev S1x4096 : Shape := ⟨2, ![1, 4096]⟩
abbrev S1 : Shape := ⟨1, ![1]⟩
abbrev S4096x2 : Shape := ⟨2, ![4096, 2]⟩
abbrev S1x1 : Shape := ⟨2, ![1, 1]⟩
abbrev S16384x1 : Shape := ⟨2, ![16384, 1]⟩
abbrev S512x4096 : Shape := ⟨2, ![512, 4096]⟩
abbrev S512x1 : Shape := ⟨2, ![512, 1]⟩
abbrev S512x2 : Shape := ⟨2, ![512, 2]⟩
abbrev S16384 : Shape := ⟨1, ![16384]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x1, .f32⟩
  | .hbm, ⟨2, _⟩ => ⟨S1x4096, .f32⟩
  | .hbm, ⟨3, _⟩ => ⟨S1, .f32⟩
  | .hbm, ⟨4, _⟩ => ⟨S4096x1, .f32⟩
  | .hbm, ⟨5, _⟩ => ⟨S4096x2, .f32⟩
  | .hbm, ⟨6, _⟩ => ⟨S4096x2, .bf16⟩
  | .hbm, ⟨7, _⟩ => ⟨S1x1, .f32⟩
  | .hbm, ⟨8, _⟩ => ⟨S16384x1, .f32⟩
  | .hbm, ⟨9, _⟩ => ⟨S16384, .f32⟩
  | .local _ .vmem, ⟨0, _⟩ => ⟨S512x4096, .f32⟩
  | .local _ .vmem, ⟨1, _⟩ => ⟨S512x4096, .f32⟩
  | .local _ .vmem, ⟨2, _⟩ => ⟨S4096x2, .bf16⟩
  | .local _ .vmem, ⟨3, _⟩ => ⟨S1x1, .f32⟩
  | .local _ .vmem, ⟨4, _⟩ => ⟨S512x1, .f32⟩
  | .local _ .vmem, ⟨5, _⟩ => ⟨S512x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1x4096_S4096x1_1_0 : S1x4096.Transposes [1, 0] S4096x1
  concatenates_S4096x1_S4096x1_S4096x2_d1 : Shape.Concatenates [S4096x1, S4096x1] S4096x2 1
  bitsLt_bf16_f32 : FTy.bits .bf16 < FTy.bits .f32
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S512x2_o0_0_S512x1 : S512x2.Slices ![0, 0] S512x1
  slices_S512x2_o0_1_S512x1 : S512x2.Slices ![0, 1] S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  dot_S512x4096_S4096x2_S512x2_1_0_0_1_n_n_wf : DotDims.WF S512x4096 S4096x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S4096x2.size a
  hwx0_1 : ∀ i : grid0.Coords, EltTy.bits .bf16 = 32 ∨ (Rect.block (s := S4096x2) S4096x2.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)

variable [Facts₀]

def dot_S512x4096_S4096x2_S512x2_1_0_0_1_n_n : DotDims S512x4096 S4096x2 S512x2 where
  lhsContracting := [1]
  rhsContracting := [0]
  lhsNonContracting := [0]
  rhsNonContracting := [1]
  lhsBatch := []
  rhsBatch := []
  wf := dot_S512x4096_S4096x2_S512x2_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x1 : Shape := ⟨2, ![4096, 1]⟩
abbrev S1x4096 : Shape := ⟨2, ![1, 4096]⟩
abbrev S1 : Shape := ⟨1, ![1]⟩
abbrev S16384x1 : Shape := ⟨2, ![16384, 1]⟩
abbrev S1x1 : Shape := ⟨2, ![1, 1]⟩
abbrev S16384 : Shape := ⟨1, ![16384]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1, .f32⟩
  | .hbm, ⟨2, _⟩ => ⟨S1x4096, .f32⟩
  | .hbm, ⟨3, _⟩ => ⟨S1, .f32⟩
  | .hbm, ⟨4, _⟩ => ⟨S16384x1, .f32⟩
  | .hbm, ⟨5, _⟩ => ⟨S4096x1, .f32⟩
  | .hbm, ⟨6, _⟩ => ⟨S16384x1, .f32⟩
  | .hbm, ⟨7, _⟩ => ⟨S1x1, .f32⟩
  | .hbm, ⟨8, _⟩ => ⟨S16384x1, .f32⟩
  | .hbm, ⟨9, _⟩ => ⟨S16384x1, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  transposes_S1x4096_S4096x1_1_0 : S1x4096.Transposes [1, 0] S4096x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  dot_S16384x4096_S4096x1_S16384x1_1_0_0_1_n_n_wf : DotDims.WF S16384x4096 S4096x1 S16384x1 [1] [0] [0] [1] [] []

variable [Facts₀]

def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf

class Facts : Prop extends Facts₀ where

variable [Facts]
-- ==== Proof.QuadLinSpec.lean ====
/-
  The value both programs compute, as ONE function of the four argument arrays.

  For a row `r` of the input matrix `x` (16384 rows of length 4096) write
    q r = ∑ₖ x (r, k) · v (k, 0)      the row's inner product with the column `v`   (the rank-one quadratic form is q²),
    l r = ∑ₖ x (r, k) · w (0, k)      the row's inner product with the row vector `w` (the linear form),
  and `β = b 0` for the one bias entry. The result, a column of 16384 entries, is
    G (r, 0) = -(q r · q r) + (l r + β).
  One program spells this `((0 - q·q) + l) + β`: on the extended reals `0 - a = -a` and addition is associative
  (both without any finiteness assumption: `⊤ + ⊥ = ⊥` on either grouping), which is `regroup`.
-/
import Idealize.ShloMosaic.PureOps.Ideal
import Idealize.ShloMosaic.Lib.ValueIdx

noncomputable section

open scoped BigOperators

namespace Cert.QuadLin

open Idealize.ShloMosaic Idealize.ShloMosaic.ValueIdx

/-- Row `r`'s inner product with the column vector `v`. -/
def quad (x : FVec Ideal ⟨2, ![16384, 4096]⟩ .f32) (v : FVec Ideal ⟨2, ![4096, 1]⟩ .f32) (r : Fin 16384) : EReal :=
  ∑ k : Fin 4096, x (ix2 r k) * v (ix2 k (0 : Fin 1))

/-- Row `r`'s inner product with the row vector `w`. -/
def lin (x : FVec Ideal ⟨2, ![16384, 4096]⟩ .f32) (w : FVec Ideal ⟨2, ![1, 4096]⟩ .f32) (r : Fin 16384) : EReal :=
  ∑ k : Fin 4096, x (ix2 r k) * w (ix2 (0 : Fin 1) k)

/-- The result column: minus the squared inner product with `v`, plus the inner product with `w` and the bias. -/
def G (x : FVec Ideal ⟨2, ![16384, 4096]⟩ .f32) (v : FVec Ideal ⟨2, ![4096, 1]⟩ .f32) (w : FVec Ideal ⟨2, ![1, 4096]⟩ .f32)
    (b : FVec Ideal ⟨1, ![1]⟩ .f32) : FVec Ideal ⟨2, ![16384, 1]⟩ .f32 :=
  fun i => -(quad x v (i 0) * quad x v (i 0)) + (lin x w (i 0) + b (ix1 (0 : Fin 1)))

/-- The two groupings agree on the extended reals: `0 - a` is `-a`, and `+` is associative. -/
theorem regroup (a l β : EReal) : ((0 - a) + l) + β = -a + (l + β) := by
  rw [zero_sub, add_assoc]

end Cert.QuadLin

end
-- ==== Proof.RefIsSpec.lean ====
/-
  The reference computes `G`.

  Read one operation at a time, the reference's column before its final reshape is, at row `r`,
  `-(q r · q r) + (l r + β)`: its two matrix–vector products are the sums `q` and `l` over the contracted coordinate
  (the second against the transposed row vector, so it reads `w (0, k)`), and the bias is broadcast from its one entry.
  That is `G` as stated, term for term; what is proved here is only that the index maps name the same entries.
-/
import proofs.«116599_j77962246357369_2_alg».proof.Proof.Gen.ReferenceIdeal.Read
import proofs.«116599_j77962246357369_2_alg».proof.Proof.QuadLinSpec

noncomputable section

open scoped BigOperators

namespace Cert.QuadLin

open Cert.ReferenceIdeal Cert.ReferenceIdeal.Read Idealize.ShloMosaic Idealize.ShloMosaic.ValueIdx

/-- The reference's column before the final reshape is `G` of the four arguments. -/
theorem reference_is_G (x0 : (⟨S16384x4096, .f32⟩ : BufTy).Contents (Elt Ideal)) (x1 : (⟨S4096x1, .f32⟩ : BufTy).Contents (Elt Ideal))
    (x2 : (⟨S1x4096, .f32⟩ : BufTy).Contents (Elt Ideal)) (x3 : (⟨S1, .f32⟩ : BufTy).Contents (Elt Ideal)) :
    val_main_v8 (F := Ideal) x0 x1 x2 x3 = G x0 x1 x2 x3 := by
  funext i
  have hi1 : (i 1).val = 0 := by have := idx2_lt1 i; omega
  -- the operand entries the sums read, by coordinates
  have eL0 : ∀ k : Fin 4096, lidx_main_v0 i k = ix2 (i 0) k := fun k => funext fun a => by
    match a with
    | ⟨0, _⟩ => rfl
    | ⟨1, _⟩ => rfl
  have eR0 : ∀ k : Fin 4096, ridx_main_v0 i k = ix2 k (0 : Fin 1) := fun k => funext fun a => by
    match a with
    | ⟨0, _⟩ => rfl
    | ⟨1, _⟩ => exact Fin.ext hi1
  have eL2 : ∀ k : Fin 4096, lidx_main_v2 i k = ix2 (i 0) k := fun k => funext fun a => by
    match a with
    | ⟨0, _⟩ => rfl
    | ⟨1, _⟩ => rfl
  have eT : ∀ k : Fin 4096, idx_main_v1 (ridx_main_v2 i k) = ix2 (0 : Fin 1) k := fun k => funext fun a => by
    match a with
    | ⟨0, _⟩ => exact Fin.ext hi1
    | ⟨1, _⟩ => rfl
  have eB : idx_main_v3 (idx_main_v4 i) = ix1 (0 : Fin 1) := funext fun a => by
    match a with
    | ⟨0, _⟩ => rfl
  rw [val_main_v8_apply, val_main_v7_apply, val_main_v6_apply, val_main_v0_apply, val_main_v5_apply, val_main_v2_apply,
    val_main_v4_apply, val_main_v3_apply]
  have hq : (∑ k : Fin 4096, x0 (lidx_main_v0 i k) * x1 (ridx_main_v0 i k)) = quad x0 x1 (i 0) :=
    Finset.sum_congr rfl fun k _ => by rw [eL0, eR0]; rfl
  have hl : (∑ k : Fin 4096, x0 (lidx_main_v2 i k) * (val_main_v1 (F := Ideal) x2) (ridx_main_v2 i k)) = lin x0 x2 (i 0) :=
    Finset.sum_congr rfl fun k _ => by rw [val_main_v1_apply, eL2, eT]; rfl
  rw [hq, hl, eB]
  rfl

end Cert.QuadLin

end
-- ==== Proof.LibBlock.lean ====
/-
  Blocks read at an index: a matrix product into a zero accumulator, entry by entry.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.BodyAtRow.lean ====
/-
  What the kernel body computes for one row of its block.

  The body holds a block of 512 rows of the input matrix, the 4096 × 2 weight matrix (column 0 the quadratic form's
  vector, column 1 the linear form's) and the one bias entry. Its one matrix product, into a zero accumulator, gives
  per row `p` the two inner products `q = ∑ₖ x (p, k) · W (k, 0)` and `l = ∑ₖ x (p, k) · W (k, 1)`; the rest is
  pointwise: `((0 - q·q) + l) + β`, which is `-(q·q) + (l + β)` on the extended reals.
-/
import proofs.«116599_j77962246357369_2_alg».proof.Proof.Gen.KernelIdeal.Skeleton
import proofs.«116599_j77962246357369_2_alg».proof.Proof.LibBlock
import proofs.«116599_j77962246357369_2_alg».proof.Proof.QuadLinSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.QuadLin

open Cert.KernelIdeal Cert.KernelIdeal.Gen Idealize.ShloMosaic Idealize.ShloMosaic.ValueIdx

/-- Column `0` of a two-column matrix, read at row `p`. -/
theorem col0_apply (y : FVec Ideal S512x2 .f32) (h : S512x2.Slices ![0, 0] S512x1) (p : Fin 512) (z : Fin 1) :
    extractStridedSlice S512x1 ![0, 0] y h (ix2 p z) = y (ix2 p (0 : Fin 2)) :=
  slice2_axis1_apply 0 y h p z 0 (by have := z.isLt; show 0 = 0 + z.val; omega)

/-- Column `1` of a two-column matrix, read at row `p`. -/
theorem col1_apply (y : FVec Ideal S512x2 .f32) (h : S512x2.Slices ![0, 1] S512x1) (p : Fin 512) (z : Fin 1) :
    extractStridedSlice S512x1 ![0, 1] y h (ix2 p z) = y (ix2 p (1 : Fin 2)) :=
  slice2_axis1_apply 1 y h p z 1 (by have := z.isLt; show 1 = 1 + z.val; omega)

/-- The body's stored value at row `p` of the block: minus the squared inner product with weight column 0, plus the
    inner product with weight column 1 and the bias. -/
theorem body_at_row (x0 : Vec Ideal S512x4096 .f32) (x1 : Vec Ideal S4096x2 .bf16) (x2 : Vec Ideal S1x1 .f32)
    (p : Fin 512) (z : Fin 1) :
    k0_pay1 (F := Ideal) x0 x1 x2 (ix2 p z)
      = -((∑ k : Fin 4096, x0 (ix2 p k) * x1 (ix2 k (0 : Fin 2))) * (∑ k : Fin 4096, x0 (ix2 p k) * x1 (ix2 k (0 : Fin 2))))
        + ((∑ k : Fin 4096, x0 (ix2 p k) * x1 (ix2 k (1 : Fin 2))) + x2 (ix2 (0 : Fin 1) (0 : Fin 1))) := by
  unfold k0_pay1
  simp only [shapeCast_self]
  rw [addf_apply, addf_apply, subf_apply, mulf_apply, broadcast_apply, col0_apply, col1_apply,
    broadcastTo_1b_ab_apply]
  simp only [matmul]
  rw [Cert.LibBlock.matmul_zero_ix2 dot_S512x4096_S4096x2_S512x2_1_0_0_1_n_n rfl rfl rfl rfl rfl rfl,
    Cert.LibBlock.matmul_zero_ix2 dot_S512x4096_S4096x2_S512x2_1_0_0_1_n_n rfl rfl rfl rfl rfl rfl]
  have hβ : x2 (ix2 (0 : Fin 1) z) = x2 (ix2 (0 : Fin 1) (0 : Fin 1)) := by
    rw [show z = (0 : Fin 1) from Fin.ext (by have := z.isLt; omega)]
  rw [hβ]
  show ((Ideal.ofBits .f32 0x00000000#32 - _) + _) + _ = _
  rw [Ideal.ofBits_zero_f32]
  exact regroup _ _ _

end Cert.QuadLin

end
-- ==== Proof.Weights.lean ====
/-
  The weight matrix and the bias as the region finds them.

  Before the region the host lays the two vectors side by side: the 4096 × 2 weight matrix `W` has the column vector
  `v` as its column 0 and the row vector `w`, transposed, as its column 1, so `W (k, 0) = v (k, 0)` and
  `W (k, 1) = w (0, k)`; narrowing its entries to a shorter float format changes nothing on the extended reals. The
  bias is the one-entry vector viewed as a 1 × 1 matrix.
-/
import proofs.«116599_j77962246357369_2_alg».proof.Proof.Gen.KernelIdeal.Frame
import Idealize.ShloMosaic.Lib.Pipeline.Value
import Idealize.ShloMosaic.Lib.ValueIdx
import Idealize.ShloMosaic.Lib.StableHlo.Run

noncomputable section

namespace Cert.QuadLin

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weight matrix: the column vector beside the transposed row vector. -/
theorem weights_eq (c : Dev nD) :
    (V m c main_v2 : S4096x2.Idx → EReal)
      = truncf (F := Ideal) (φ := .f32) .bf16 (concatenate S4096x2 1
          [⟨S4096x1, (m ((c : Thread nD τ).loc main_arg1) : S4096x1.Idx → EReal)⟩,
           ⟨S4096x1, transpose S4096x1 [1, 0] (m ((c : Thread nD τ).loc main_arg2) : S1x4096.Idx → EReal)
              Cert.KernelIdeal.Gen.transposes_S1x4096_S4096x1_1_0⟩]
          Cert.KernelIdeal.Gen.concatenates_S4096x1_S4096x1_S4096x2_d1) Cert.KernelIdeal.Gen.bitsLt_bf16_f32 := by
  show StableHlo.after hostOps0 (fun b => m (c, b)) (Proc.devRef .tc main_v2) = _
  after_results <;> rfl

/-- Column 0 of the weight matrix is the column vector. -/
theorem weights_col0 (c : Dev nD) (k : Fin 4096) :
    (V m c main_v2 : S4096x2.Idx → EReal) (ix2 k (0 : Fin 2))
      = (m ((c : Thread nD τ).loc main_arg1) : S4096x1.Idx → EReal) (ix2 k (0 : Fin 1)) := by
  rw [weights_eq, truncf_apply]
  exact concatenate_pair_apply_left (t := S4096x2) (s₁ := S4096x1) (s₂ := S4096x1) (1 : Fin 2) _ _ _ (ix2 k (0 : Fin 2)) rfl
    (ix2 k (0 : Fin 1)) (fun b => by
    match b with
    | ⟨0, _⟩ => rfl
    | ⟨1, _⟩ => rfl)

/-- Column 1 of the weight matrix is the row vector, transposed. -/
theorem weights_col1 (c : Dev nD) (k : Fin 4096) :
    (V m c main_v2 : S4096x2.Idx → EReal) (ix2 k (1 : Fin 2))
      = (m ((c : Thread nD τ).loc main_arg2) : S1x4096.Idx → EReal) (ix2 (0 : Fin 1) k) := by
  rw [weights_eq, truncf_apply]
  refine (concatenate_pair_apply_right (t := S4096x2) (s₁ := S4096x1) (s₂ := S4096x1) (1 : Fin 2) _ _ _ (ix2 k (1 : Fin 2)) rfl rfl
    (ix2 k (0 : Fin 1)) (fun b hb => ?_) ?_).trans ?_
  · match b with
    | ⟨0, _⟩ => rfl
    | ⟨1, _⟩ => exact absurd rfl hb
  · rfl
  · exact transpose_apply [1, 0] _ _ (ix2 k (0 : Fin 1)) (ix2 (0 : Fin 1) k) (fun b => by
      match b with
      | ⟨0, _⟩ => rfl
      | ⟨1, _⟩ => rfl)

/-- The bias matrix is the one-entry vector reshaped. -/
theorem bias_eq (c : Dev nD) :
    (V m c main_v3 : S1x1.Idx → EReal)
      = shapeCast S1x1 (m ((c : Thread nD τ).loc main_arg3) : S1.Idx → EReal) Cert.KernelIdeal.Gen.shapeCasts_S1_S1x1 := by
  show StableHlo.after hostOps0 (fun b => m (c, b)) (Proc.devRef .tc main_v3) = _
  after_results <;> rfl

/-- Its one entry is the vector's. -/
theorem bias_apply (c : Dev nD) :
    (V m c main_v3 : S1x1.Idx → EReal) (ix2 (0 : Fin 1) (0 : Fin 1))
      = (m ((c : Thread nD τ).loc main_arg3) : S1.Idx → EReal) (ix1 (0 : Fin 1)) := by
  rw [bias_eq]
  exact shapeCast_apply _ _ (ix2 (0 : Fin 1) (0 : Fin 1)) (ix1 (0 : Fin 1)) (by
    rw [Shape.rowMajor_val_one, Shape.rowMajor_val_two]; rfl)

end Cert.QuadLin

end
-- ==== Proof.RowBlocks.lean ====
/-
  From the blocks to the whole column.

  The grid has 32 points; point `t` holds rows `512 t … 512 t + 511` of the input matrix, the whole weight matrix and
  the bias, and writes back rows `512 t … 512 t + 511` of the result column. Row `p` of that block is row
  `512 t + p` of `G`: the body's two inner products run over the same row of the input matrix and over the weight
  matrix's two columns, which are the column vector and the transposed row vector. Every row `r` of the column lies
  in exactly the block of point `r / 512`, so after the last write-back the column is `G`.
-/
import proofs.«116599_j77962246357369_2_alg».proof.Proof.Gen.KernelIdeal.Frame
import proofs.«116599_j77962246357369_2_alg».proof.Proof.BodyAtRow
import proofs.«116599_j77962246357369_2_alg».proof.Proof.Weights
import Idealize.ShloMosaic.Lib.Pipeline.Value

noncomputable section

open scoped BigOperators

namespace Cert.QuadLin

open Cert.KernelIdeal Cert.KernelIdeal.Gen Idealize.ShloMosaic Idealize.ShloMosaic.TcCoe Idealize.SL.Sem
open Idealize.ShloMosaic.ValueIdx
open Idealize.ShloMosaic.Pipeline (Dat)

/-- One row of a block against one row of `G`: if the block's input rows, weight columns and bias entry are the
    arrays' at the matching places, the body's value at row `p` is `G` at the row `i` names. -/
theorem block_row (x0 : Vec Ideal S512x4096 .f32) (x1 : Vec Ideal S4096x2 .bf16) (x2 : Vec Ideal S1x1 .f32)
    (X : FVec Ideal ⟨2, ![16384, 4096]⟩ .f32) (v : FVec Ideal ⟨2, ![4096, 1]⟩ .f32) (w : FVec Ideal ⟨2, ![1, 4096]⟩ .f32)
    (b : FVec Ideal ⟨1, ![1]⟩ .f32) (p : Fin 512) (z : Fin 1) (i : (⟨2, ![16384, 1]⟩ : Shape).Idx)
    (h0 : ∀ k : Fin 4096, x0 (ix2 p k) = X (ix2 (i 0) k))
    (h1 : ∀ k : Fin 4096, x1 (ix2 k (0 : Fin 2)) = v (ix2 k (0 : Fin 1)))
    (h1' : ∀ k : Fin 4096, x1 (ix2 k (1 : Fin 2)) = w (ix2 (0 : Fin 1) k))
    (h2 : x2 (ix2 (0 : Fin 1) (0 : Fin 1)) = b (ix1 (0 : Fin 1))) :
    k0_pay1 (F := Ideal) x0 x1 x2 (ix2 p z) = G X v w b i := by
  have hq : (∑ k : Fin 4096, x0 (ix2 p k) * x1 (ix2 k (0 : Fin 2))) = quad X v (i 0) :=
    Finset.sum_congr rfl fun k _ => by rw [h0, h1]
  have hl : (∑ k : Fin 4096, x0 (ix2 p k) * x1 (ix2 k (1 : Fin 2))) = lin X w (i 0) :=
    Finset.sum_congr rfl fun k _ => by rw [h0, h1']
  rw [body_at_row, hq, hl, h2]
  rfl

variable (m : (ℓ : Loc nD τ sig) → Buf (Elt Ideal) ℓ)

/-- The printed index maps over the grid: the input block and the output block of point `t` are both block `t` along
    the rows, and every other block index is `0`. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 32 row blocks is some point's. -/
theorem idx_onto : ∀ q : Fin 32, ∃ t : Fin cfg0.N, win0_3.index t = ![q.val, 0] :=
  (by decide +kernel : ∀ q : Fin 32, ∃ t : Fin grid0.N, win0_3.index t = ![q.val, 0])

/-- What point `t` writes back is block `t` of `G` of the arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))
        (m ((c : Thread nD τ).loc main_arg3))) := by
  show (cfg0.win 3).cut (grid0.coords t) ((dats m 0 c).after 3 t) = _
  rw [after0_3]
  unfold out0_3
  rw [View.canon_unit_zero Cert.LibBlock.hz]
  simp only [View.ld_unit_zero (S := S512x4096) Cert.LibBlock.hz, View.ld_unit_zero (S := S4096x2) Cert.LibBlock.hz,
    View.ld_unit_zero (S := S1x1) Cert.LibBlock.hz]
  obtain ⟨e0, e1, e2, e3, e4, e5, e6⟩ := idx_facts t
  refine funext fun (j : S512x1.Idx) => ?_
  obtain ⟨p, z, rfl⟩ : ∃ (p : Fin 512) (z : Fin 1), j = ix2 p z := ⟨j 0, j 1, eq_ix2 j⟩
  show k0_pay1 (F := Ideal) (iblk m c 0 t) (iblk m c 1 t) (iblk m c 2 t) (ix2 p z)
    = G (m ((c : Thread nD τ).loc main_arg0)) (m ((c : Thread nD τ).loc main_arg1)) (m ((c : Thread nD τ).loc main_arg2))
        (m ((c : Thread nD τ).loc main_arg3)) (((cfg0.win 3).blk t).view.emb (ix2 p z))
  refine block_row _ _ _ _ _ _ _ p z _ (fun k => ?_) (fun k => ?_) (fun k => ?_) ?_
  · -- the input block's row `p` is row `512 t + p` of the matrix
    show V m c main_arg0 (((cfg0.win 0).blk t).view.emb (ix2 p k)) = _
    rw [V_main_arg0]
    refine congrArg _ (funext fun a => Fin.ext ?_)
    match a with
    | ⟨0, _⟩ =>
      show win0_0.index t (0 : Fin 2) * 512 + 1 * p.val = win0_3.index t (0 : Fin 2) * 512 + 1 * p.val
      omega
    | ⟨1, _⟩ =>
      show win0_0.index t (1 : Fin 2) * 4096 + 1 * k.val = k.val
      omega
  · -- the weight block is the whole weight matrix: column 0
    refine Eq.trans ?_ (weights_col0 m c k)
    show V m c main_v2 (((cfg0.win 1).blk t).view.emb (ix2 k (0 : Fin 2))) = V m c main_v2 (ix2 k (0 : Fin 2))
    refine congrArg _ (funext fun a => Fin.ext ?_)
    match a with
    | ⟨0, _⟩ =>
      show win0_1.index t (0 : Fin 2) * 4096 + 1 * k.val = k.val
      omega
    | ⟨1, _⟩ =>
      show win0_1.index t (1 : Fin 2) * 2 + 1 * 0 = 0
      omega
  · -- column 1
    refine Eq.trans ?_ (weights_col1 m c k)
    show V m c main_v2 (((cfg0.win 1).blk t).view.emb (ix2 k (1 : Fin 2))) = V m c main_v2 (ix2 k (1 : Fin 2))
    refine congrArg _ (funext fun a => Fin.ext ?_)
    match a with
    | ⟨0, _⟩ =>
      show win0_1.index t (0 : Fin 2) * 4096 + 1 * k.val = k.val
      omega
    | ⟨1, _⟩ =>
      show win0_1.index t (1 : Fin 2) * 2 + 1 * 1 = 1
      omega
  · -- the bias block is the whole 1 × 1 matrix
    refine Eq.trans ?_ (bias_apply m c)
    show V m c main_v3 (((cfg0.win 2).blk t).view.emb (ix2 (0 : Fin 1) (0 : Fin 1))) = V m c main_v3 (ix2 (0 : Fin 1) (0 : Fin 1))
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 1 + 1 * 0 = 0
      omega

/-- A row of the column is in point `t`'s block iff each coordinate is in the block's range. -/
theorem mem_blk (t : Fin cfg0.N) (i : S16384x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v4).slice (win0_3.rect t)).set ↔ _
  rw [View.set_slice_whole, Rect.mem_set_unit]
  exact Iff.rfl

/-- Every row is in the block of the point `r / 512`. -/
theorem cover (i : S16384x1.Idx) :
    ∃ t : Fin cfg0.N, (cfg0.win 3).flush t = true ∧ i ∈ ((cfg0.win 3).blk t).view.set := by
  have hi0 : (i 0).val < 16384 := idx2_lt0 i
  have hi1 : (i 1).val < 1 := idx2_lt1 i
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1 ≤ (i 1).val ∧ (i 1).val < win0_3.index t (1 : Fin 2) * 1 + 1
    omega

/-- The result column after the region: `G` of the four arguments. -/
theorem column_eq (c : Dev nD) :
    (dats m 0 c).arrAt 3 cfg0.N
      = G (m ((c : Thread nD τ).loc main_arg0)) (m ((c : Thread nD τ).loc main_arg1)) (m ((c : Thread nD τ).loc main_arg2))
          (m ((c : Thread nD τ).loc main_arg3)) :=
  (dats m 0 c).arrAt_eq_of_cover 3 _ (fun t _ => flushed_eq m c t) cover

end Cert.QuadLin

end
-- ==== Proof.KernelRun.lean ====
/-
  The kernel program's run, with its result named.

  After the region the host reshapes the 16384 × 1 result column into a vector of 16384 entries and touches nothing
  else. So the program ends with its result at that reshape of `G` of the four arguments, and the arguments as they
  were.
-/
import proofs.«116599_j77962246357369_2_alg».proof.Proof.Gen.KernelIdeal.Frame
import proofs.«116599_j77962246357369_2_alg».proof.Proof.RowBlocks
import Idealize.ShloMosaic.Lib.StableHlo.Run

noncomputable section

namespace Cert.QuadLin

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The result vector: the reshape of the column `G` of the four arguments. -/
def result (c : Dev nD) : S16384.Idx → EReal :=
  shapeCast S16384
    (G (m ((c.tc : Thread nD τ).loc main_arg0)) (m ((c.tc : Thread nD τ).loc main_arg1)) (m ((c.tc : Thread nD τ).loc main_arg2))
      (m ((c.tc : Thread nD τ).loc main_arg3)))
    Cert.KernelIdeal.Gen.shapeCasts_S16384x1_S16384

/-- What the host's last line leaves in the result buffer: the reshape of the region's column, which is `G`. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  unfold result
  rw [← column_eq m c]
  exact congrArg (fun y : S16384x1.Idx → EReal => shapeCast S16384 y Cert.KernelIdeal.Gen.shapeCasts_S16384x1_S16384)
    (Pipeline.withArrays_arr spec0 launch0.win.arr_inj c _ _ 3)

/-- Every weakly fair execution of the kernel program terminates with the result at `result` and the arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QuadLin

end
-- ==== Proof.lean ====
/-
  A rank-one quadratic form plus a linear form, row by row.

  For a 16384 × 4096 matrix `x`, a column vector `v`, a row vector `w` and a one-entry bias `β`, both programs compute
  for every row `r`
      -(q r)² + l r + β,      q r = ∑ₖ x (r, k) · v (k, 0),   l r = ∑ₖ x (r, k) · w (0, k).
  The kernel puts `v` and the transposed `w` side by side as the two columns of one 4096 × 2 weight matrix and takes,
  block of 512 rows by block, ONE matrix product whose two columns are `q` and `l`; it then forms
  `((0 - q·q) + l) + β`. The reference takes two matrix–vector products and forms `-(q·q) + (l + β)`. On the extended
  reals a matrix product into a zero accumulator and the host's contraction are the same sum over `k`, narrowing the
  weights to a shorter float format is the identity, `0 - a = -a`, and addition is associative — none of which asks
  the inputs to be finite, so the precondition is never opened. Both programs end by reshaping the result column into
  a vector, the same operation on the same column.

  The modules: `QuadLinSpec` (the function `G` and the regrouping law), `RefIsSpec` (the reference's column is `G`),
  `BodyAtRow` (the kernel body at one row of a block), `Weights` (the weight matrix and bias the region finds),
  `RowBlocks` (block `t` is rows `512 t …` of `G`, and the 32 blocks cover the column), `KernelRun` (the kernel
  program's run with its result named), and `LibBlock` (a matrix product into a zero accumulator read at an entry).
-/
import proofs.«116599_j77962246357369_2_alg».proof.Defs
import proofs.«116599_j77962246357369_2_alg».proof.Proof.Gen.Kernel
import proofs.«116599_j77962246357369_2_alg».proof.Proof.Gen.Kernel.Skeleton
import proofs.«116599_j77962246357369_2_alg».proof.Proof.Gen.Kernel.Launch
import proofs.«116599_j77962246357369_2_alg».proof.Proof.Gen.Kernel.Points
import proofs.«116599_j77962246357369_2_alg».proof.Proof.Gen.Kernel.Frame
import proofs.«116599_j77962246357369_2_alg».proof.Proof.Gen.KernelIdeal
import proofs.«116599_j77962246357369_2_alg».proof.Proof.Gen.KernelIdeal.Skeleton
import proofs.«116599_j77962246357369_2_alg».proof.Proof.Gen.KernelIdeal.Launch
import proofs.«116599_j77962246357369_2_alg».proof.Proof.Gen.KernelIdeal.Points
import proofs.«116599_j77962246357369_2_alg».proof.Proof.Gen.KernelIdeal.Frame
import proofs.«116599_j77962246357369_2_alg».proof.Proof.Gen.ReferenceIdeal
import proofs.«116599_j77962246357369_2_alg».proof.Proof.Gen.ReferenceIdeal.Run
import proofs.«116599_j77962246357369_2_alg».proof.Proof.Gen.ReferenceIdeal.Read
import proofs.«116599_j77962246357369_2_alg».proof.Proof.Gen.Pre_finite_inputs
import proofs.«116599_j77962246357369_2_alg».proof.Proof.RefIsSpec
import proofs.«116599_j77962246357369_2_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as they were. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals, so there is nothing to preserve. -/
theorem preserves : Cert.preserves_Kernel_KernelIdeal := trivial

/-- From arguments that agree, the kernel program ends at the reshape of `G` (the blocks cover the column), and so
    does the reference (its column is `G` term for term): equal results, entry by entry. -/
theorem algebraic : Cert.algebraic_KernelIdeal_ReferenceIdeal := by
  intro m ρ m' ρ' _ hagree
  refine ⟨fun c => Cert.QuadLin.result m c, Cert.QuadLin.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq]
  unfold Cert.ReferenceIdeal.Read.val_main_v9
  rw [Cert.QuadLin.reference_is_G, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
